-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "inv_768" .f32 0x3AAAAAAB#32 ((1 / 768 : ℝ) : EReal)
  ∧ IdealRules.named_const.Statement Cert.KernelIdeal.κ "inv_768" .f32 0x3AAAAAAB#32 ((1 / 768 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x768 : Shape := ⟨3, ![4, 8192, 768]⟩
abbrev S8192x768 : Shape := ⟨2, ![8192, 768]⟩
abbrev S768 : Shape := ⟨1, ![768]⟩
abbrev S_ : Shape := ⟨0, ![]⟩

class Facts : Prop where
  bcast_S_S4x8192x768 : S_.BroadcastsInDim S4x8192x768 (![] : Fin 0 → Fin S4x8192x768.rank)
  reducesTo_S4x8192x768_S_d0_1_2 : S4x8192x768.ReducesTo [0, 1, 2] S_
  h_S_ : 0 < S_.numel
  bcast_S_S8192x768 : S_.BroadcastsInDim S8192x768 (![] : Fin 0 → Fin S8192x768.rank)
  reducesTo_S8192x768_S_d0_1 : S8192x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_v13 : IVec S_ 1) (main_v16 : IVec S768 1) : IVec S_ 1 :=
  let main_c_5 : IVec S_ 1 := constantI S_ 1 1#1
  let main_v17 : IVec S_ 1 := (fun x v => Host.reduce IntOp.andi x v reducesTo_S768_S_d0 h_S_) main_v16 main_c_5
  let main_v18 : IVec S_ 1 := andi main_v13 main_v17
  main_v18

def fn {F : FTy → Type} [FloatOps F] (main_arg0 : FVec F S4x8192x768 .f32) (main_arg1 : FVec F S8192x768 .f32) (main_arg2 : FVec F S768 .f32) (main_arg3 : FVec F S768 .f32) : IVec S_ 1 :=
  let main_v0 : FVec F S4x8192x768 .f32 := Host.absf main_arg0
  let main_cst : FVec F S_ .f32 := constant S_ .f32 0x7F800000#32
  let main_v1 : FVec F S4x8192x768 .f32 := broadcastInDim S4x8192x768 ![] bcast_S_S4x8192x768 main_cst
  let main_v2 : IVec S4x8192x768 1 := cmpf .olt main_v0 main_v1
  let main_c : IVec S_ 1 := constantI S_ 1 1#1
  let main_v3 : IVec S_ 1 := (fun x v => Host.reduce IntOp.andi x v reducesTo_S4x8192x768_S_d0_1_2 h_S_) main_v2 main_c
  let main_v4 : FVec F S8192x768 .f32 := Host.absf main_arg1
  let main_cst_0 : FVec F S_ .f32 := constant S_ .f32 0x7F800000#32
  let main_v5 : FVec F S8192x768 .f32 := broadcastInDim S8192x768 ![] bcast_S_S8192x768 main_cst_0
  let main_v6 : IVec S8192x768 1 := cmpf .olt main_v4 main_v5
  let main_c_1 : IVec S_ 1 := constantI S_ 1 1#1
  let main_v7 : IVec S_ 1 := (fun x v => Host.reduce IntOp.andi x v reducesTo_S8192x768_S_d0_1 h_S_) main_v6 main_c_1
  let main_v8 : IVec S_ 1 := andi main_v3 main_v7
  let main_v9 : FVec F S768 .f32 := Host.absf main_arg2
  let main_cst_2 : FVec F S_ .f32 := constant S_ .f32 0x7F800000#32
  let main_v10 : FVec F S768 .f32 := broadcastInDim S768 ![] bcast_S_S768 main_cst_2
  let main_v11 : IVec S768 1 := cmpf .olt main_v9 main_v10
  let main_c_3 : IVec S_ 1 := constantI S_ 1 1#1
  let main_v12 : IVec S_ 1 := (fun x v => Host.reduce IntOp.andi x v reducesTo_S768_S_d0 h_S_) main_v11 main_c_3
  let main_v13 : IVec S_ 1 := andi main_v8 main_v12
  let main_v14 : FVec F S768 .f32 := Host.absf main_arg3
  let main_cst_4 : FVec F S_ .f32 := constant S_ .f32 0x7F800000#32
  let main_v15 : FVec F S768 .f32 := broadcastInDim S768 ![] bcast_S_S768 main_cst_4
  let main_v16 : IVec S768 1 := cmpf .olt main_v14 main_v15
  fn_part1 (F := F) main_v13 main_v16
-- ==== Kernel.lean ====
abbrev S4x8192x768 : Shape := ⟨3, ![4, 8192, 768]⟩
abbrev S8192x768 : Shape := ⟨2, ![8192, 768]⟩
abbrev S768 : Shape := ⟨1, ![768]⟩
abbrev S1x768 : Shape := ⟨2, ![1, 768]⟩
abbrev S1x1024x768 : Shape := ⟨3, ![1, 1024, 768]⟩
abbrev S1024x768 : Shape := ⟨2, ![1024, 768]⟩
abbrev S1024 : Shape := ⟨1, ![1024]⟩
abbrev S1024x1 : Shape := ⟨2, ![1024, 1]⟩

abbrev nBuf : Space → Nat
  | .hbm => 7
  | .vmem => 8
  | .smem => 0
  | _ => 0

abbrev bufTy : (tb : Table) → Fin (tcTables nBuf tb) → BufTy
  | .hbm, ⟨0, _⟩ => ⟨S4x8192x768, .f32⟩
  | .hbm, ⟨1, _⟩ => ⟨S8192x768, .f32⟩
  | .hbm, ⟨2, _⟩ => ⟨S768, .f32⟩
  | .hbm, ⟨3, _⟩ => ⟨S768, .f32⟩
  | .hbm, ⟨4, _⟩ => ⟨S1x768, .f32⟩
  | .hbm, ⟨5, _⟩ => ⟨S1x768, .f32⟩
  | .hbm, ⟨6, _⟩ => ⟨S4x8192x768, .f32⟩
  | .local _ .vmem, ⟨0, _⟩ => ⟨S1x1024x768, .f32⟩
  | .local _ .vmem, ⟨1, _⟩ => ⟨S1x1024x768, .f32⟩
  | .local _ .vmem, ⟨2, _⟩ => ⟨S1024x768, .f32⟩
  | .local _ .vmem, ⟨3, _⟩ => ⟨S1024x768, .f32⟩
  | .local _ .vmem, ⟨4, _⟩ => ⟨S1x768, .f32⟩
  | .local _ .vmem, ⟨5, _⟩ => ⟨S1x768, .f32⟩
  | .local _ .vmem, ⟨6, _⟩ => ⟨S1x1024x768, .f32⟩
  | .local _ .vmem, ⟨7, _⟩ => ⟨S1x1024x768, .f32⟩
  | _, _ => ⟨S4x8192x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1024x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S768_S1x768 : S768.ShapeCasts S1x768
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  inb_S1024x768_S1024x768_0_0 : ∀ a, (![0, 0] : Fin 2 → Nat) a + S1024x768.size a ≤ S1024x768.size a
  h_S1024x768 : 0 < S1024x768.numel
  reduces_S1024x768_S1024 : S1024x768.Reduces [1] S1024
  shapeCasts_S1024_S1024x1 : S1024.ShapeCasts S1024x1
  broadcasts_S1024x1_S1024x768 : S1024x1.Broadcasts S1024x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S1024x768 : S1x768.Broadcasts S1024x768
  shapeCasts_S1024x768_S1x1024x768 : S1024x768.ShapeCasts S1x1024x768
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S4x8192x768.size a
  hwx0_0 : ∀ i : grid0.Coords, EltTy.bits .f32 = 32 ∨ (Rect.block (s := S4x8192x768) S1x1024x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x768.size a ≤ S8192x768.size a
  hwx0_1 : ∀ i : grid0.Coords, EltTy.bits .f32 = 32 ∨ (Rect.block (s := S8192x768) S1024x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x768.size a ≤ S1x768.size a
  hwx0_3 : ∀ i : grid0.Coords, EltTy.bits .f32 = 32 ∨ (Rect.block (s := S1x768) S1x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024x768.size a ≤ S4x8192x768.size a
  hwx0_4 : ∀ i : grid0.Coords, EltTy.bits .f32 = 32 ∨ (Rect.block (s := S4x8192x768) S1x1024x768.size (cc0_transform_4 i) (hinb0_4 i)).WholeWords (EltTy.packing .f32)

variable [Facts₀]

abbrev win0_0 : Pipeline.Window sig grid0 :=
  Pipeline.Window.ofSpec (Memref.whole main_arg0) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1024x768.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8192x768 : Shape := ⟨3, ![4, 8192, 768]⟩
abbrev S8192x768 : Shape := ⟨2, ![8192, 768]⟩
abbrev S768 : Shape := ⟨1, ![768]⟩
abbrev S8192 : Shape := ⟨1, ![8192]⟩
abbrev S1x8192 : Shape := ⟨2, ![1, 8192]⟩
abbrev S4x8192 : Shape := ⟨2, ![4, 8192]⟩
abbrev S_ : Shape := ⟨0, ![]⟩
abbrev S4x8192x1 : Shape := ⟨3, ![4, 8192, 1]⟩
abbrev S1 : Shape := ⟨1, ![1]⟩
abbrev S1x1x1 : Shape := ⟨3, ![1, 1, 1]⟩
abbrev S1x1x768 : Shape := ⟨3, ![1, 1, 768]⟩

abbrev nBuf : Space → Nat
  | .hbm => 60
  | .vmem => 0
  | .smem => 0
  | _ => 0

abbrev bufTy : (tb : Table) → Fin (tcTables nBuf tb) → BufTy
  | .hbm, ⟨0, _⟩ => ⟨S4x8192x768, .f32⟩
  | .hbm, ⟨1, _⟩ => ⟨S8192x768, .f32⟩
  | .hbm, ⟨2, _⟩ => ⟨S768, .f32⟩
  | .hbm, ⟨3, _⟩ => ⟨S768, .f32⟩
  | .hbm, ⟨4, _⟩ => ⟨S8192, .i32⟩
  | .hbm, ⟨5, _⟩ => ⟨S1x8192, .i32⟩
  | .hbm, ⟨6, _⟩ => ⟨S4x8192, .i32⟩
  | .hbm, ⟨7, _⟩ => ⟨S_, .i32⟩
  | .hbm, ⟨8, _⟩ => ⟨S4x8192, .i32⟩
  | .hbm, ⟨9, _⟩ => ⟨S4x8192, .i1⟩
  | .hbm, ⟨10, _⟩ => ⟨S_, .i32⟩
  | .hbm, ⟨11, _⟩ => ⟨S4x8192, .i32⟩
  | .hbm, ⟨12, _⟩ => ⟨S4x8192, .i32⟩
  | .hbm, ⟨13, _⟩ => ⟨S4x8192, .i32⟩
  | .hbm, ⟨14, _⟩ => ⟨S4x8192x1, .i32⟩
  | .hbm, ⟨15, _⟩ => ⟨S1, .i32⟩
  | .hbm, ⟨16, _⟩ => ⟨S_, .i32⟩
  | .hbm, ⟨17, _⟩ => ⟨S4x8192x1, .i32⟩
  | .hbm, ⟨18, _⟩ => ⟨S4x8192x1, .i1⟩
  | .hbm, ⟨19, _⟩ => ⟨S1x1x1, .i32⟩
  | .hbm, ⟨20, _⟩ => ⟨S4x8192x1, .i32⟩
  | .hbm, ⟨21, _⟩ => ⟨S4x8192x1, .i1⟩
  | .hbm, ⟨22, _⟩ => ⟨S4x8192x1, .i1⟩
  | .hbm, ⟨23, _⟩ => ⟨S_, .i1⟩
  | .hbm, ⟨24, _⟩ => ⟨S4x8192, .i1⟩
  | .hbm, ⟨25, _⟩ => ⟨S4x8192x768, .f32⟩
  | .hbm, ⟨26, _⟩ => ⟨S4x8192x768, .i1⟩
  | .hbm, ⟨27, _⟩ => ⟨S_, .f32⟩
  | .hbm, ⟨28, _⟩ => ⟨S4x8192x768, .f32⟩
  | .hbm, ⟨29, _⟩ => ⟨S4x8192x768, .f32⟩
  | .hbm, ⟨30, _⟩ => ⟨S4x8192x768, .f32⟩
  | .hbm, ⟨31, _⟩ => ⟨S_, .f32⟩
  | .hbm, ⟨32, _⟩ => ⟨S4x8192, .f32⟩
  | .hbm, ⟨33, _⟩ => ⟨S4x8192x1, .f32⟩
  | .hbm, ⟨34, _⟩ => ⟨S_, .f32⟩
  | .hbm, ⟨35, _⟩ => ⟨S4x8192x1, .f32⟩
  | .hbm, ⟨36, _⟩ => ⟨S4x8192x1, .f32⟩
  | .hbm, ⟨37, _⟩ => ⟨S4x8192x768, .f32⟩
  | .hbm, ⟨38, _⟩ => ⟨S4x8192x768, .f32⟩
  | .hbm, ⟨39, _⟩ => ⟨S4x8192x768, .f32⟩
  | .hbm, ⟨40, _⟩ => ⟨S_, .f32⟩
  | .hbm, ⟨41, _⟩ => ⟨S4x8192, .f32⟩
  | .hbm, ⟨42, _⟩ => ⟨S4x8192x1, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S4x8192x768, .f32⟩
  | .hbm, ⟨47, _⟩ => ⟨S4x8192x768, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x8192x1, .f32⟩
  | .hbm, ⟨52, _⟩ => ⟨S4x8192x768, .f32⟩
  | .hbm, ⟨53, _⟩ => ⟨S4x8192x768, .f32⟩
  | .hbm, ⟨54, _⟩ => ⟨S1x1x768, .f32⟩
  | .hbm, ⟨55, _⟩ => ⟨S4x8192x768, .f32⟩
  | .hbm, ⟨56, _⟩ => ⟨S4x8192x768, .f32⟩
  | .hbm, ⟨57, _⟩ => ⟨S1x1x768, .f32⟩
  | .hbm, ⟨58, _⟩ => ⟨S4x8192x768, .f32⟩
  | .hbm, ⟨59, _⟩ => ⟨S4x8192x768, .f32⟩
  | _, _ => ⟨S4x8192x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_c : Ref sig .tc := ⟨.hbm, 7, rfl⟩
abbrev main_call0_v0 : Ref sig .tc := ⟨.hbm, 8, rfl⟩
abbrev main_call0_v1 : Ref sig .tc := ⟨.hbm, 9, rfl⟩
abbrev main_call0_c_0 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_c_1 : Ref sig .tc := ⟨.hbm, 15, rfl⟩
abbrev main_call0_c_2 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_3 : Ref sig .tc := ⟨.hbm, 23, rfl⟩
abbrev main_call0_v12 : Ref sig .tc := ⟨.hbm, 24, rfl⟩
abbrev main_call0_v13 : Ref sig .tc := ⟨.hbm, 25, rfl⟩
abbrev main_call0_v14 : Ref sig .tc := ⟨.hbm, 26, rfl⟩
abbrev main_call0_cst : Ref sig .tc := ⟨.hbm, 27, rfl⟩
abbrev main_call0_v15 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S4x8192_0_1 : S1x8192.BroadcastsInDim S4x8192 (![0, 1] : Fin 2 → Fin S4x8192.rank)
  bcast_S_S4x8192 : S_.BroadcastsInDim S4x8192 (![] : Fin 0 → Fin S4x8192.rank)
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S1_S1x1x1_2 : S1.BroadcastsInDim S1x1x1 (![2] : Fin 1 → Fin S1x1x1.rank)
  bcast_S1x1x1_S4x8192x1_0_1_2 : S1x1x1.BroadcastsInDim S4x8192x1 (![0, 1, 2] : Fin 3 → Fin S4x8192x1.rank)
  reducesTo_S4x8192x1_S4x8192_d2 : S4x8192x1.ReducesTo [2] S4x8192
  h_S_ : 0 < S_.numel
  bcast_S4x8192_S4x8192x768_0_1 : S4x8192.BroadcastsInDim S4x8192x768 (![0, 1] : Fin 2 → Fin S4x8192x768.rank)
  bcast_S_S4x8192x768 : S_.BroadcastsInDim S4x8192x768 (![] : Fin 0 → Fin S4x8192x768.rank)
  reducesTo_S4x8192x768_S4x8192_d2 : S4x8192x768.ReducesTo [2] S4x8192
  bcast_S4x8192x1_S4x8192x768_0_1_2 : S4x8192x1.BroadcastsInDim S4x8192x768 (![0, 1, 2] : Fin 3 → Fin S4x8192x768.rank)
  bcast_S768_S1x1x768_2 : S768.BroadcastsInDim S1x1x768 (![2] : Fin 1 → Fin S1x1x768.rank)
  bcast_S1x1x768_S4x8192x768_0_1_2 : S1x1x768.BroadcastsInDim S4x8192x768 (![0, 1, 2] : Fin 3 → Fin S4x8192x768.rank)
  gather_S8192x768_S4x8192x1_S4x8192x768_2_0_n_n_0_2_1768_wf : GatherDims.WF S8192x768 S4x8192x1 S4x8192x768 [2] [0] [] [0] [] 2 ![1, 768]

variable [Facts₀]

def gather_S8192x768_S4x8192x1_S4x8192x768_2_0_n_n_0_2_1768 : GatherDims S8192x768 S4x8192x1 S4x8192x768 where
  offsetDims := [2]
  collapsedSliceDims := [0]
  operandBatchingDims := []
  startIndicesBatchingDims := []
  startIndexMap := [0]
  indexVectorDim := 2
  sliceSizes := ![1, 768]
  wf := gather_S8192x768_S4x8192x1_S4x8192x768_2_0_n_n_0_2_1768_wf

class Facts : Prop extends Facts₀ where

variable [Facts]
-- ==== Proof.Spec.lean ====
/-
  Layer normalisation of the rows of `x + pos`, stated once on the extended reals.

  For a batch `b`, a position `s` and a lane `j`, write `h k = x[b, s, k] + pos[s, k]` for the row of 768 sums.  Both
  programs compute, from that row, the centred entry `h j - mean` scaled by the reciprocal of the square root of
  `var + ε`, then multiplied by `γ[j]` and shifted by `β[j]`.  They differ in how two steps are spelt:

  * the mean and the variance are a sum times a constant `c` (`rowMul`: the product form) or a sum divided by a
    constant `n` (`rowDiv`: the quotient form);
  * the scaling is a product with `rsqrt (var + ε)` or a quotient by `sqrt (var + ε)`.

  `lnMul` and `lnDiv` are the two whole-array functions, index by index over `[4, 8192, 768]`.  That they agree when
  `c = 1/768`, `n = 768`, `ε` is a positive real and every entry of `x` and `pos` is a real is proved in the module
  that imports this one; nothing here is about either program.
-/
import Idealize.ShloMosaic.PureOps.Ideal
import Idealize.ShloMosaic.Lib.ValueIdx

noncomputable section

open scoped BigOperators

namespace Cert.LN

open Idealize.ShloMosaic Idealize.ShloMosaic.ValueIdx

/-- The shape of `x` and of the result. -/
abbrev SX : Shape := ⟨3, ![4, 8192, 768]⟩
/-- The shape of the position table. -/
abbrev SP : Shape := ⟨2, ![8192, 768]⟩
/-- The shape of `γ` and of `β`. -/
abbrev SV : Shape := ⟨1, ![768]⟩

/-- The row `k ↦ x[b, s, k] + pos[s, k]`. -/
def hrow (x : SX.Idx → EReal) (pos : SP.Idx → EReal) (b : Fin 4) (s : Fin 8192) : Fin 768 → EReal :=
  fun k => x (ix3 b s k) + pos (ix2 s k)

/-- The mean of a row in product form: the row's sum times `c`. -/
def meanMul (c : EReal) (h : Fin 768 → EReal) : EReal := (∑ k, h k) * c

/-- The variance of a row in product form: the sum of the squared deviations from `meanMul`, times `c`. -/
def varMul (c : EReal) (h : Fin 768 → EReal) : EReal :=
  (∑ k, (h k - meanMul c h) * (h k - meanMul c h)) * c

/-- One normalised entry, product form: `(h j - mean) · rsqrt (var + ε) · g + b`. -/
def rowMul (c ε : EReal) (h : Fin 768 → EReal) (g b : EReal) (j : Fin 768) : EReal :=
  (h j - meanMul c h) * Ideal.rsqrt (varMul c h + ε) * g + b

/-- The mean of a row in quotient form: the row's sum divided by `n`. -/
def meanDiv (n : EReal) (h : Fin 768 → EReal) : EReal := Ideal.div (∑ k, h k) n

/-- The variance of a row in quotient form. -/
def varDiv (n : EReal) (h : Fin 768 → EReal) : EReal :=
  Ideal.div (∑ k, (h k - meanDiv n h) * (h k - meanDiv n h)) n

/-- One normalised entry, quotient form: `(h j - mean) / sqrt (var + ε) · g + b`. -/
def rowDiv (n ε : EReal) (h : Fin 768 → EReal) (g b : EReal) (j : Fin 768) : EReal :=
  Ideal.div (h j - meanDiv n h) (Ideal.sqrt (varDiv n h + ε)) * g + b

/-- The whole result in product form, at coordinates. -/
def lnMulAt (c ε : EReal) (x : SX.Idx → EReal) (pos : SP.Idx → EReal) (gam bet : SV.Idx → EReal)
    (b : Fin 4) (s : Fin 8192) (j : Fin 768) : EReal :=
  rowMul c ε (hrow x pos b s) (gam (ix1 j)) (bet (ix1 j)) j

/-- The whole result in quotient form, at coordinates. -/
def lnDivAt (n ε : EReal) (x : SX.Idx → EReal) (pos : SP.Idx → EReal) (gam bet : SV.Idx → EReal)
    (b : Fin 4) (s : Fin 8192) (j : Fin 768) : EReal :=
  rowDiv n ε (hrow x pos b s) (gam (ix1 j)) (bet (ix1 j)) j

/-- The whole result in product form, as an array over `[4, 8192, 768]`. -/
def lnMul (c ε : EReal) (x : SX.Idx → EReal) (pos : SP.Idx → EReal) (gam bet : SV.Idx → EReal) : SX.Idx → EReal :=
  fun i => lnMulAt c ε x pos gam bet (i 0) (i 1) (i 2)

/-- The whole result in quotient form, as an array over `[4, 8192, 768]`. -/
def lnDiv (n ε : EReal) (x : SX.Idx → EReal) (pos : SP.Idx → EReal) (gam bet : SV.Idx → EReal) : SX.Idx → EReal :=
  fun i => lnDivAt n ε x pos gam bet (i 0) (i 1) (i 2)

theorem lnMul_ix3 (c ε : EReal) (x : SX.Idx → EReal) (pos : SP.Idx → EReal) (gam bet : SV.Idx → EReal)
    (b : Fin 4) (s : Fin 8192) (j : Fin 768) :
    lnMul c ε x pos gam bet (ix3 b s j) = lnMulAt c ε x pos gam bet b s j := rfl

theorem lnDiv_ix3 (n ε : EReal) (x : SX.Idx → EReal) (pos : SP.Idx → EReal) (gam bet : SV.Idx → EReal)
    (b : Fin 4) (s : Fin 8192) (j : Fin 768) :
    lnDiv n ε x pos gam bet (ix3 b s j) = lnDivAt n ε x pos gam bet b s j := rfl

/-- The literal `ε` both programs add to the variance (the f32 word nearest to 1e-12). -/
abbrev epsLit : EReal := Ideal.ofBits .f32 0x2B8CBCCC#32
/-- The literal `768.0` the reference divides by. -/
abbrev nLit : EReal := Ideal.ofBits .f32 0x44400000#32
/-- The rational the kernel's named reciprocal denotes. -/
abbrev cLit : EReal := ((1 / 768 : ℝ) : EReal)

end Cert.LN

end
-- ==== Proof.KPay.lean ====
/-
  The block the kernel body leaves, read at one entry.

  At a grid point the body loads a block `P0` of `x` (one batch row, 1024 positions, 768 lanes), the matching 1024 rows
  `P1` of the position table, and the rows `P2 = γ`, `P3 = β`.  The generated value leg states the stored block as one
  index-by-index function `E4` of these loads, with the two lane sums kept whole.  Here the lane sums are opened: at
  position `r` and lane `j` the block holds the layer-normalised entry of the row `k ↦ P0[0, r, k] + P1[r, k]` in product
  form (`Cert.LN.rowMul`): the mean and the variance are lane sums times the named reciprocal `1/768`, and the centred
  entry is multiplied by `rsqrt (var + ε)`, by `γ[j]`, and shifted by `β[j]`.
-/
import proofs.«107286_g32229434589322_cont_9to1_584_2_alg».proof.Proof.Gen.KernelIdeal.Value
import proofs.«107286_g32229434589322_cont_9to1_584_2_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

open scoped BigOperators

namespace Cert.KernelIdeal.KPay

open Cert.KernelIdeal Cert.KernelIdeal.Gen Idealize.ShloMosaic Idealize.ShloMosaic.ValueIdx

/-- The kernel's named reciprocal denotes the rational `1/768` on the extended reals. -/
theorem inv_eq : Named.named (F := Ideal) κ "inv_768" (φ := .f32) 0x3AAAAAAB#32 = Cert.LN.cLit :=
  IdealRules.named_const.ideal_named_scalar _ _ _ _ rfl

/-- A lane sum of a `[1024, 768]` block at row `r` is the sum of that row's 768 entries. -/
theorem laneSum_apply (src : FVec Ideal S1024x768 .f32) (r : Fin 1024) :
    multiReduction .add [1] S1024 src 0x00000000#32 reduces_S1024x768_S1024 (.inl rfl) rfl (ix1 r)
      = ∑ k : Fin 768, src (ix2 r k) := by
  refine (Ideal.multiReduction_add_single src 0x00000000#32 reduces_S1024x768_S1024 (.inl rfl) rfl (ix1 r)).trans ?_
  refine Finset.sum_congr rfl fun k _ => congrArg src ?_
  funext c; apply Fin.ext
  match c with
  | ⟨0, _⟩ => rfl
  | ⟨1, _⟩ => rfl

/-- The summed block `x + pos` at `(r, k)`: the leading unit axis of the `x` block is dropped. -/
theorem sum_apply (P0 : FVec Ideal S1x1024x768 .f32) (P1 : FVec Ideal S1024x768 .f32) (r : Fin 1024) (k : Fin 768) :
    (addf (shapeCast S1024x768 P0 shapeCasts_S1x1024x768_S1024x768) P1) (ix2 r k)
      = P0 (ix3 (0 : Fin 1) r k) + P1 (ix2 r k) := by
  refine (addf_apply _ _ _).trans ?_
  exact congrArg (· + P1 (ix2 r k)) (shapeCast_1ab_ab_apply P0 _ r k)

/-- A per-row value `v` times a scalar `c`, kept as a column and broadcast over the lanes, reads `v r · c` at `(r, k)`. -/
theorem col_apply (v : FVec Ideal S1024 .f32) (c : Ideal .f32) (r : Fin 1024) (k : Fin 768) :
    (broadcastTo S1024x768 (mulf (shapeCast S1024x1 v shapeCasts_S1024_S1024x1) (broadcast S1024x1 c))
        broadcasts_S1024x1_S1024x768) (ix2 r k) = v (ix1 r) * c := by
  refine (broadcastTo_apply _ _ (ix2 r k) (ix2 r (0 : Fin 1)) (fun a => ?_)).trans ?_
  · match a with
    | ⟨0, _⟩ => show r.val = (if (1024 : Nat) = 1 then 0 else r.val); rw [if_neg (by decide)]
    | ⟨1, _⟩ => show 0 = (if (1 : Nat) = 1 then 0 else k.val); rw [if_pos rfl]
  · refine (mulf_apply _ _ _).trans ?_
    refine congrArg (· * c) ?_
    exact shapeCast_apply v _ (ix2 r (0 : Fin 1)) (ix1 r)
      (by rw [Shape.rowMajor_val_one, Shape.rowMajor_val_two]; show r.val = r.val * 1 + 0; omega)

/-- The stored block at `(0, r, j)`: the layer-normalised entry, in product form, of the row `k ↦ P0[0, r, k] + P1[r, k]`
    with scale `P2[0, j]` and shift `P3[0, j]`. -/
theorem E4_apply (P0 : FVec Ideal S1x1024x768 .f32) (P1 : FVec Ideal S1024x768 .f32) (P2 P3 : FVec Ideal S1x768 .f32)
    (r : Fin 1024) (j : Fin 768) :
    Value.E4 (F := Ideal) P0 P1 P2 P3 (ix3 (0 : Fin 1) r j)
      = Cert.LN.rowMul Cert.LN.cLit Cert.LN.epsLit (fun k => P0 (ix3 (0 : Fin 1) r k) + P1 (ix2 r k))
          (P2 (ix2 (0 : Fin 1) j)) (P3 (ix2 (0 : Fin 1) j)) j := by
  have e0 : Value.ix4_0 (ix3 (0 : Fin 1) r j) = ix3 (0 : Fin 1) r j := by
    funext a; apply Fin.ext
    match a with
    | ⟨0, _⟩ => rfl
    | ⟨1, _⟩ => rfl
    | ⟨2, _⟩ => rfl
  have e1 : Value.ix4_1 (ix3 (0 : Fin 1) r j) = ix2 r j := by
    funext a; apply Fin.ext
    match a with
    | ⟨0, _⟩ => rfl
    | ⟨1, _⟩ => rfl
  have e2 : Value.ix4_2 (ix3 (0 : Fin 1) r j) = ix1 r := by
    funext a; apply Fin.ext
    match a with
    | ⟨0, _⟩ => rfl
  have e3 : Value.ix4_3 (ix3 (0 : Fin 1) r j) = ix1 r := by
    funext a; apply Fin.ext
    match a with
    | ⟨0, _⟩ => rfl
  have e4 : Value.ix4_4 (ix3 (0 : Fin 1) r j) = ix2 (0 : Fin 1) j := by
    funext a; apply Fin.ext
    match a with
    | ⟨0, _⟩ => rfl
    | ⟨1, _⟩ => rfl
  have e5 : Value.ix4_5 (ix3 (0 : Fin 1) r j) = ix2 (0 : Fin 1) j := by
    funext a; apply Fin.ext
    match a with
    | ⟨0, _⟩ => rfl
    | ⟨1, _⟩ => rfl
  unfold Cert.LN.rowMul Cert.LN.varMul Cert.LN.meanMul
  dsimp only [Value.E4]
  rw [e0, e1, e2, e3, e4, e5, inv_eq, laneSum_apply, laneSum_apply]
  simp only [mulf_apply, subf_apply, sum_apply, col_apply, laneSum_apply, inv_eq, Ideal.addf_def, Ideal.subf_def,
    Ideal.mulf_def, Ideal.rsqrt_def, Ideal.ofBits_def]
  have hM := laneSum_apply (addf (shapeCast S1024x768 P0 shapeCasts_S1x1024x768_S1024x768) P1) r
  simp only [hM, sum_apply]

/-- `rowMul` depends on the row, the scale and the shift only through their values. -/
theorem rowMul_congr (c ε : EReal) {h h' : Fin 768 → EReal} {g g' b b' : EReal} (hh : ∀ k, h k = h' k) (hg : g = g')
    (hb : b = b') (j : Fin 768) : Cert.LN.rowMul c ε h g b j = Cert.LN.rowMul c ε h' g' b' j := by
  rw [funext hh, hg, hb]

end Cert.KernelIdeal.KPay

end
-- ==== Proof.KArr.lean ====
/-
  From the blocks the kernel writes to the whole result array.

  The grid has 8 × 4 points: point `t` handles sequence block `s_t` (1024 positions) of batch row `b_t`.  Its input
  blocks are rows `[s_t·1024, s_t·1024 + 1024)` of batch `b_t` of `x`, the same rows of the position table, and the
  whole rows `γ` and `β` (which the host reshaped to `[1, 768]` before the launch); its output block is the same rows of
  batch `b_t` of the result.  Entry `(0, r, j)` of the block written at `t` is therefore entry
  `(b_t, s_t·1024 + r, j)` of `Cert.LN.lnMul` of the four arguments; the 32 blocks tile the result, so the result array
  after the run is `Cert.LN.lnMul` of the arguments.
-/
import proofs.«107286_g32229434589322_cont_9to1_584_2_alg».proof.Proof.KPay
import Idealize.ShloMosaic.Lib.StableHlo.Run

noncomputable section

open scoped BigOperators

namespace Cert.KernelIdeal.KArr

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-- When the launch is reached, the buffer staged as `γ`'s window holds `γ` reshaped to one row. -/
theorem V_v0 (c : Dev nD) :
    (V m c main_v0 : S1x768.Idx → EReal) = shapeCast S1x768 (m ((c : Thread nD τ).loc main_arg2)) shapeCasts_S768_S1x768 := by
  dsimp only [Gen.V, Gen.hostOps0]; after_results; rfl

/-- And `β`'s window holds `β` reshaped to one row. -/
theorem V_v1 (c : Dev nD) :
    (V m c main_v1 : S1x768.Idx → EReal) = shapeCast S1x768 (m ((c : Thread nD τ).loc main_arg3)) shapeCasts_S768_S1x768 := by
  dsimp only [Gen.V, Gen.hostOps0]; after_results; rfl

/-- The printed index maps over the 32 grid points: the `x` block moves with the output block, the position-table
    block follows the output's sequence-block coordinate, `γ` and `β` stay at block 0, and the output's block
    coordinates range over `4 × 8 × 1`. -/
theorem idx_facts : ∀ t : Fin cfg0.N,
      win0_0.index t (0 : Fin 3) = win0_4.index t (0 : Fin 3)
    ∧ win0_0.index t (1 : Fin 3) = win0_4.index t (1 : Fin 3)
    ∧ win0_0.index t (2 : Fin 3) = 0
    ∧ win0_1.index t (0 : Fin 2) = win0_4.index t (1 : Fin 3)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) ≤ 3 ∧ win0_4.index t (1 : Fin 3) ≤ 7 ∧ win0_4.index t (2 : Fin 3) = 0 :=
  (by decide +kernel : ∀ t : Fin grid0.N, _)

/-- Every block coordinate `(b, s, 0)` is some grid point's. -/
theorem idx_onto : ∀ (q0 : Fin 4) (q1 : Fin 8), ∃ t : Fin cfg0.N, win0_4.index t = ![q0.val, q1.val, 0] :=
  (by decide +kernel : ∀ (q0 : Fin 4) (q1 : Fin 8), ∃ t : Fin grid0.N, win0_4.index t = ![q0.val, q1.val, 0])

/-! ## What each window's block holds, entry by entry -/

/-- Entry `(0, r, k)` of the `x` block at point `t` is `x[b, s, k]` for the batch row `b` and position `s` of the point. -/
theorem blk0_read (c : Dev nD) (t : Fin cfg0.N) (r : Fin 1024) (k : Fin 768) (b : Fin 4) (s : Fin 8192)
    (hb : b.val = win0_4.index t (0 : Fin 3)) (hs : s.val = win0_4.index t (1 : Fin 3) * 1024 + r.val) :
    iblk m c 0 t (ix3 (0 : Fin 1) r k) = V m c main_arg0 (ix3 b s k) := by
  obtain ⟨e0, e1, e2, -⟩ := idx_facts t
  show V m c main_arg0 (((cfg0.win 0).blk t).view.emb (ix3 (0 : Fin 1) r k)) = V m c main_arg0 (ix3 b s k)
  refine congrArg (V m c main_arg0) ?_
  funext a; apply Fin.ext
  match a with
  | ⟨0, _⟩ => show win0_0.index t (0 : Fin 3) * 1 + 1 * 0 = b.val; omega
  | ⟨1, _⟩ => show win0_0.index t (1 : Fin 3) * 1024 + 1 * r.val = s.val; omega
  | ⟨2, _⟩ => show win0_0.index t (2 : Fin 3) * 768 + 1 * k.val = k.val; omega

/-- Entry `(r, k)` of the position-table block at point `t` is `pos[s, k]`. -/
theorem blk1_read (c : Dev nD) (t : Fin cfg0.N) (r : Fin 1024) (k : Fin 768) (s : Fin 8192)
    (hs : s.val = win0_4.index t (1 : Fin 3) * 1024 + r.val) :
    iblk m c 1 t (ix2 r k) = V m c main_arg1 (ix2 s k) := by
  obtain ⟨-, -, -, e3, e4, -⟩ := idx_facts t
  show V m c main_arg1 (((cfg0.win 1).blk t).view.emb (ix2 r k)) = V m c main_arg1 (ix2 s k)
  refine congrArg (V m c main_arg1) ?_
  funext a; apply Fin.ext
  match a with
  | ⟨0, _⟩ => show win0_1.index t (0 : Fin 2) * 1024 + 1 * r.val = s.val; omega
  | ⟨1, _⟩ => show win0_1.index t (1 : Fin 2) * 768 + 1 * k.val = k.val; omega

/-- Entry `(0, j)` of the `γ` block at any point is `γ[j]`. -/
theorem blk2_read (c : Dev nD) (t : Fin cfg0.N) (j : Fin 768) :
    iblk m c 2 t (ix2 (0 : Fin 1) j) = m ((c : Thread nD τ).loc main_arg2) (ix1 j) := by
  obtain ⟨-, -, -, -, -, e5, e6, -⟩ := idx_facts t
  show V m c main_v0 (((cfg0.win 2).blk t).view.emb (ix2 (0 : Fin 1) j)) = _
  have he : ((cfg0.win 2).blk t).view.emb (ix2 (0 : Fin 1) j) = ix2 (0 : Fin 1) j := by
    funext a; apply Fin.ext
    match a with
    | ⟨0, _⟩ => show win0_2.index t (0 : Fin 2) * 1 + 1 * 0 = 0; omega
    | ⟨1, _⟩ => show win0_2.index t (1 : Fin 2) * 768 + 1 * j.val = j.val; omega
  rw [he, V_v0]
  exact shapeCast_a_1a_apply _ _ (0 : Fin 1) j

/-- Entry `(0, j)` of the `β` block at any point is `β[j]`. -/
theorem blk3_read (c : Dev nD) (t : Fin cfg0.N) (j : Fin 768) :
    iblk m c 3 t (ix2 (0 : Fin 1) j) = m ((c : Thread nD τ).loc main_arg3) (ix1 j) := by
  obtain ⟨-, -, -, -, -, -, -, e7, e8, -⟩ := idx_facts t
  show V m c main_v1 (((cfg0.win 3).blk t).view.emb (ix2 (0 : Fin 1) j)) = _
  have he : ((cfg0.win 3).blk t).view.emb (ix2 (0 : Fin 1) j) = ix2 (0 : Fin 1) j := by
    funext a; apply Fin.ext
    match a with
    | ⟨0, _⟩ => show win0_3.index t (0 : Fin 2) * 1 + 1 * 0 = 0; omega
    | ⟨1, _⟩ => show win0_3.index t (1 : Fin 2) * 768 + 1 * j.val = j.val; omega
  rw [he, V_v1]
  exact shapeCast_a_1a_apply _ _ (0 : Fin 1) j

/-! ## What a grid point writes back, the cover, and the whole array -/

/-- What point `t` writes back is block `t` of `Cert.LN.lnMul` of the arguments. -/
theorem flushed_eq (c : Dev nD) (t : Fin cfg0.N) :
    (dats m 0 c).flushed 4 t = ((cfg0.win 4).blk t).view.read (Elt Ideal)
      (Cert.LN.lnMul Cert.LN.cLit Cert.LN.epsLit (V m c main_arg0) (V m c main_arg1)
        (m ((c : Thread nD τ).loc main_arg2)) (m ((c : Thread nD τ).loc main_arg3))) := by
  show (cfg0.win 4).cut (grid0.coords t) ((dats m 0 c).after 4 t) = _
  rw [after0_4]
  unfold out0_4
  simp only [View.ld_unit_zero (S := S1x1024x768) hz3, View.ld_unit_zero (S := S1024x768) hz2,
    View.ld_unit_zero (S := S1x768) hz2]
  funext y
  obtain ⟨u, r, j, rfl⟩ : ∃ (u : Fin 1) (r : Fin 1024) (j : Fin 768), y = ix3 u r j := ⟨y 0, y 1, y 2, eq_ix3 y⟩
  obtain rfl : u = 0 := Fin.ext (by omega)
  obtain ⟨e0, e1, e2, e3, e4, e5, e6, e7, e8, e9, e10, e11⟩ := idx_facts t
  obtain ⟨b, hb⟩ : ∃ b : Fin 4, b.val = win0_4.index t (0 : Fin 3) := ⟨⟨win0_4.index t (0 : Fin 3), by omega⟩, rfl⟩
  obtain ⟨s, hs⟩ : ∃ s : Fin 8192, s.val = win0_4.index t (1 : Fin 3) * 1024 + r.val :=
    ⟨⟨win0_4.index t (1 : Fin 3) * 1024 + r.val, by have := r.isLt; omega⟩, rfl⟩
  have hemb : ((cfg0.win 4).blk t).view.emb (ix3 (0 : Fin 1) r j) = ix3 b s j := by
    funext a; apply Fin.ext
    match a with
    | ⟨0, _⟩ => show win0_4.index t (0 : Fin 3) * 1 + 1 * 0 = b.val; omega
    | ⟨1, _⟩ => show win0_4.index t (1 : Fin 3) * 1024 + 1 * r.val = s.val; omega
    | ⟨2, _⟩ => show win0_4.index t (2 : Fin 3) * 768 + 1 * j.val = j.val; omega
  show _
    = Cert.LN.lnMul Cert.LN.cLit Cert.LN.epsLit (V m c main_arg0) (V m c main_arg1)
        (m ((c : Thread nD τ).loc main_arg2)) (m ((c : Thread nD τ).loc main_arg3))
        (((cfg0.win 4).blk t).view.emb (ix3 (0 : Fin 1) r j))
  rw [hemb, Cert.LN.lnMul_ix3]
  refine (Value.canon4_eq (iblk m c 0 t) (iblk m c 1 t) (iblk m c 2 t) (iblk m c 3 t) (ix3 (0 : Fin 1) r j)).trans ?_
  refine (KPay.E4_apply (iblk m c 0 t) (iblk m c 1 t) (iblk m c 2 t) (iblk m c 3 t) r j).trans ?_
  unfold Cert.LN.lnMulAt
  refine KPay.rowMul_congr _ _ (fun k => ?_) (blk2_read m c t j) (blk3_read m c t j) j
  unfold Cert.LN.hrow
  rw [← blk0_read m c t r k b s hb hs, ← blk1_read m c t r k s hs]

/-- An index of the result is in point `t`'s block iff each coordinate is in the block's range on its axis. -/
theorem mem_blk (t : Fin cfg0.N) (i : S4x8192x768.Idx) :
    i ∈ ((cfg0.win 4).blk t).view.set ↔ ∀ a : Fin 3, win0_4.index t a * S1x1024x768.size a ≤ (i a).val
      ∧ (i a).val < win0_4.index t a * S1x1024x768.size a + S1x1024x768.size a := by
  show i ∈ ((View.whole main_v2).slice (win0_4.rect t)).set ↔ _
  rw [View.set_slice_whole, Rect.mem_set_unit]
  exact Iff.rfl

/-- The 32 blocks cover the result: index `(b, s, j)` is in the block of the point with batch row `b` and sequence
    block `s / 1024`. -/
theorem cover (i : S4x8192x768.Idx) :
    ∃ t : Fin cfg0.N, (cfg0.win 4).flush t = true ∧ i ∈ ((cfg0.win 4).blk t).view.set := by
  have hi0 : (i 0).val < 4 := (i 0).isLt
  have hi1 : (i 1).val < 8192 := (i 1).isLt
  have hi2 : (i 2).val < 768 := (i 2).isLt
  obtain ⟨t, ht⟩ := idx_onto ⟨(i 0).val, by omega⟩ ⟨(i 1).val / 1024, by omega⟩
  have q0 : win0_4.index t (0 : Fin 3) = (i 0).val := congrFun ht 0
  have q1 : win0_4.index t (1 : Fin 3) = (i 1).val / 1024 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 1024 ≤ (i 1).val ∧ (i 1).val < win0_4.index t (1 : Fin 3) * 1024 + 1024; omega
  | ⟨2, _⟩ => show win0_4.index t (2 : Fin 3) * 768 ≤ (i 2).val ∧ (i 2).val < win0_4.index t (2 : Fin 3) * 768 + 768; omega

/-- The result array after the run is `Cert.LN.lnMul` of the four argument arrays. -/
theorem final (c : Dev nD) :
    (dats m 0 c).arrAt 4 cfg0.N = Cert.LN.lnMul Cert.LN.cLit Cert.LN.epsLit (m ((c : Thread nD τ).loc main_arg0))
      (m ((c : Thread nD τ).loc main_arg1)) (m ((c : Thread nD τ).loc main_arg2)) (m ((c : Thread nD τ).loc main_arg3)) := by
  have h := (dats m 0 c).arrAt_eq_of_cover 4
    (Cert.LN.lnMul Cert.LN.cLit Cert.LN.epsLit (V m c main_arg0) (V m c main_arg1)
      (m ((c : Thread nD τ).loc main_arg2)) (m ((c : Thread nD τ).loc main_arg3)))
    (fun t _ => flushed_eq m c t) cover
  rw [h, V_main_arg0, V_main_arg1]

/-- Every weakly fair execution of the idealized kernel's program terminates with the result array at
    `Cert.LN.lnMul` of the arguments and the arguments unchanged. -/
theorem run : θ_run defs (onTc (τ := τ) (main (F := Ideal))) ⟨m, fun _ => 0, ρ⟩ fun r => ∀ c : Dev nD,
      r.2.mem ((c : Thread nD τ).loc main_v2)
        = Cert.LN.lnMul Cert.LN.cLit Cert.LN.epsLit (m ((c : Thread nD τ).loc main_arg0))
            (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.KArr

end
-- ==== Proof.RefRun.lean ====
/-
  The reference as a straight line of operations, and its run.  The printed reference calls two outlined functions (the position lookup and the
  select it uses to wrap negative indices), so its `main` is not literally a list of operations; unfolding the two
  bodies at their call sites and re-associating the sequencing makes it one: `ops` below lists the fifty-six
  operations in the order they run, the callee's lines over the call's own buffers.  `run_main` then says that every
  weakly fair execution terminates with each buffer at the fold of these operations over the launch contents.
-/
import proofs.«107286_g32229434589322_cont_9to1_584_2_alg».proof.Defs
import proofs.«107286_g32229434589322_cont_9to1_584_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's operations in the order they run: the index vector `0 … 8191` and its two broadcasts; the lookup's
    twenty-three lines (the wrap of negative indices — a comparison with zero, the index plus 8192, the select between
    them, which is the inner function's one line —, the index with a unit axis, the in-bounds mask `0 ≤ i ≤ 8191`
    reduced over that unit axis, the gather of whole rows, and the select of the gathered row or the not-a-number
    literal); then the layer normalisation's thirty lines. -/
abbrev ops : List (HloOp τ sig (Elt F)) :=
  [ nullary main_v0 (iotaInDim S8192 32 0),
    unary main_v0 main_v1 (broadcastInDim S1x8192 ![1] bcast_S8192_S1x8192_1 : (⟨S8192, .i32⟩ : BufTy).Contents (Elt F) → (⟨S1x8192, .i32⟩ : BufTy).Contents (Elt F)),
    unary main_v1 main_v2 (broadcastInDim S4x8192 ![0, 1] bcast_S1x8192_S4x8192_0_1 : (⟨S1x8192, .i32⟩ : BufTy).Contents (Elt F) → (⟨S4x8192, .i32⟩ : BufTy).Contents (Elt F)),
    TRef.nullary main_call0.c (constantI S_ 32 0#32),
    TRef.unary main_call0.c main_call0.v0 (broadcastInDim S4x8192 ![] bcast_S_S4x8192),
    TRef.binary (.of main_v2) main_call0.v0 main_call0.v1 (cmpi .slt),
    TRef.nullary main_call0.c_0 (constantI S_ 32 8192#32),
    TRef.unary main_call0.c_0 main_call0.v2 (broadcastInDim S4x8192 ![] bcast_S_S4x8192),
    TRef.binary (.of main_v2) main_call0.v2 main_call0.v3 addi,
    TRef.ternary main_call0.v1 main_call0.v3 (.of main_v2) main_call0.call0.v0 select,
    TRef.unary main_call0.call0.v0 main_call0.v5 (broadcastInDim S4x8192x1 ![0, 1] bcast_S4x8192_S4x8192x1_0_1),
    TRef.nullary main_call0.c_1 (constantI S1 32 8191#32),
    TRef.nullary main_call0.c_2 (constantI S_ 32 0#32),
    TRef.unary main_call0.c_2 main_call0.v6 (broadcastInDim S4x8192x1 ![] bcast_S_S4x8192x1),
    TRef.binary main_call0.v5 main_call0.v6 main_call0.v7 (cmpi .sge),
    TRef.unary main_call0.c_1 main_call0.v8 (broadcastInDim S1x1x1 ![2] bcast_S1_S1x1x1_2),
    TRef.unary main_call0.v8 main_call0.v9 (broadcastInDim S4x8192x1 ![0, 1, 2] bcast_S1x1x1_S4x8192x1_0_1_2),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S4x8192x1_S4x8192_d2 h_S_),
    TRef.binary (.of main_arg1) main_call0.v5 main_call0.v13 (fun x i => Host.gather gather_S8192x768_S4x8192x1_S4x8192x768_2_0_n_n_0_2_1768 x i),
    TRef.unary main_call0.v12 main_call0.v14 (broadcastInDim S4x8192x768 ![0, 1] bcast_S4x8192_S4x8192x768_0_1),
    TRef.nullary main_call0.cst (constant S_ .f32 0x7FC00000#32),
    TRef.unary main_call0.cst main_call0.v15 (broadcastInDim S4x8192x768 ![] bcast_S_S4x8192x768),
    TRef.ternary main_call0.v14 main_call0.v13 main_call0.v15 main_call0.v16 select,
    binary main_arg0 main_v3 main_v4 (addf : (⟨S4x8192x768, .f32⟩ : BufTy).Contents (Elt F) → (⟨S4x8192x768, .f32⟩ : BufTy).Contents (Elt F) → (⟨S4x8192x768, .f32⟩ : BufTy).Contents (Elt F)),
    nullary main_cst (constant S_ .f32 0x00000000#32),
    binary main_v4 main_cst main_v5 ((fun x v => Host.reduceAdd x v reducesTo_S4x8192x768_S4x8192_d2 h_S_) : (⟨S4x8192x768, .f32⟩ : BufTy).Contents (Elt F) → (⟨S_, .f32⟩ : BufTy).Contents (Elt F) → (⟨S4x8192, .f32⟩ : BufTy).Contents (Elt F)),
    unary main_v5 main_v6 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_0 (constant S_ .f32 0x44400000#32),
    unary main_cst_0 main_v7 (broadcastInDim S4x8192x1 ![] bcast_S_S4x8192x1 : (⟨S_, .f32⟩ : BufTy).Contents (Elt F) → (⟨S4x8192x1, .f32⟩ : BufTy).Contents (Elt F)),
    binary main_v6 main_v7 main_v8 (Host.divf : (⟨S4x8192x1, .f32⟩ : BufTy).Contents (Elt F) → (⟨S4x8192x1, .f32⟩ : BufTy).Contents (Elt F) → (⟨S4x8192x1, .f32⟩ : BufTy).Contents (Elt F)),
    unary main_v8 main_v9 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    binary main_v4 main_v9 main_v10 (subf : (⟨S4x8192x768, .f32⟩ : BufTy).Contents (Elt F) → (⟨S4x8192x768, .f32⟩ : BufTy).Contents (Elt F) → (⟨S4x8192x768, .f32⟩ : BufTy).Contents (Elt F)),
    binary main_v10 main_v10 main_v11 (mulf : (⟨S4x8192x768, .f32⟩ : BufTy).Contents (Elt F) → (⟨S4x8192x768, .f32⟩ : BufTy).Contents (Elt F) → (⟨S4x8192x768, .f32⟩ : BufTy).Contents (Elt F)),
    nullary main_cst_1 (constant S_ .f32 0x00000000#32),
    binary main_v11 main_cst_1 main_v12 ((fun x v => Host.reduceAdd x v reducesTo_S4x8192x768_S4x8192_d2 h_S_) : (⟨S4x8192x768, .f32⟩ : BufTy).Contents (Elt F) → (⟨S_, .f32⟩ : BufTy).Contents (Elt F) → (⟨S4x8192, .f32⟩ : BufTy).Contents (Elt F)),
    unary main_v12 main_v13 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_2 (constant S_ .f32 0x44400000#32),
    unary main_cst_2 main_v14 (broadcastInDim S4x8192x1 ![] bcast_S_S4x8192x1 : (⟨S_, .f32⟩ : BufTy).Contents (Elt F) → (⟨S4x8192x1, .f32⟩ : BufTy).Contents (Elt F)),
    binary main_v13 main_v14 main_v15 (Host.divf : (⟨S4x8192x1, .f32⟩ : BufTy).Contents (Elt F) → (⟨S4x8192x1, .f32⟩ : BufTy).Contents (Elt F) → (⟨S4x8192x1, .f32⟩ : BufTy).Contents (Elt F)),
    unary main_v8 main_v16 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    binary main_v4 main_v16 main_v17 (subf : (⟨S4x8192x768, .f32⟩ : BufTy).Contents (Elt F) → (⟨S4x8192x768, .f32⟩ : BufTy).Contents (Elt F) → (⟨S4x8192x768, .f32⟩ : BufTy).Contents (Elt F)),
    nullary main_cst_3 (constant S_ .f32 0x2B8CBCCC#32),
    unary main_cst_3 main_v18 (broadcastInDim S4x8192x1 ![] bcast_S_S4x8192x1 : (⟨S_, .f32⟩ : BufTy).Contents (Elt F) → (⟨S4x8192x1, .f32⟩ : BufTy).Contents (Elt F)),
    binary main_v15 main_v18 main_v19 (addf : (⟨S4x8192x1, .f32⟩ : BufTy).Contents (Elt F) → (⟨S4x8192x1, .f32⟩ : BufTy).Contents (Elt F) → (⟨S4x8192x1, .f32⟩ : BufTy).Contents (Elt F)),
    unary main_v19 main_v20 (Host.sqrt : (⟨S4x8192x1, .f32⟩ : BufTy).Contents (Elt F) → (⟨S4x8192x1, .f32⟩ : BufTy).Contents (Elt F)),
    unary main_v20 main_v21 (broadcastInDim S4x8192x768 ![0, 1, 2] bcast_S4x8192x1_S4x8192x768_0_1_2 : (⟨S4x8192x1, .f32⟩ : BufTy).Contents (Elt F) → (⟨S4x8192x768, .f32⟩ : BufTy).Contents (Elt F)),
    binary main_v17 main_v21 main_v22 (Host.divf : (⟨S4x8192x768, .f32⟩ : BufTy).Contents (Elt F) → (⟨S4x8192x768, .f32⟩ : BufTy).Contents (Elt F) → (⟨S4x8192x768, .f32⟩ : BufTy).Contents (Elt F)),
    unary main_arg2 main_v23 (broadcastInDim S1x1x768 ![2] bcast_S768_S1x1x768_2 : (⟨S768, .f32⟩ : BufTy).Contents (Elt F) → (⟨S1x1x768, .f32⟩ : BufTy).Contents (Elt F)),
    unary main_v23 main_v24 (broadcastInDim S4x8192x768 ![0, 1, 2] bcast_S1x1x768_S4x8192x768_0_1_2 : (⟨S1x1x768, .f32⟩ : BufTy).Contents (Elt F) → (⟨S4x8192x768, .f32⟩ : BufTy).Contents (Elt F)),
    binary main_v22 main_v24 main_v25 (mulf : (⟨S4x8192x768, .f32⟩ : BufTy).Contents (Elt F) → (⟨S4x8192x768, .f32⟩ : BufTy).Contents (Elt F) → (⟨S4x8192x768, .f32⟩ : BufTy).Contents (Elt F)),
    unary main_arg3 main_v26 (broadcastInDim S1x1x768 ![2] bcast_S768_S1x1x768_2 : (⟨S768, .f32⟩ : BufTy).Contents (Elt F) → (⟨S1x1x768, .f32⟩ : BufTy).Contents (Elt F)),
    unary main_v26 main_v27 (broadcastInDim S4x8192x768 ![0, 1, 2] bcast_S1x1x768_S4x8192x768_0_1_2 : (⟨S1x1x768, .f32⟩ : BufTy).Contents (Elt F) → (⟨S4x8192x768, .f32⟩ : BufTy).Contents (Elt F)),
    binary main_v25 main_v27 main_v28 (addf : (⟨S4x8192x768, .f32⟩ : BufTy).Contents (Elt F) → (⟨S4x8192x768, .f32⟩ : BufTy).Contents (Elt F) → (⟨S4x8192x768, .f32⟩ : BufTy).Contents (Elt F)) ]

-- fifty-six binds re-associated: the rewrite under the chain recurses once per statement
set_option maxRecDepth 2048 in
/-- The printed `main` is that straight line: the two functions' bodies unfolded at their calls, and the sequencing
    re-associated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub ..⟩

/-- From any memory with zero counters, every weakly fair execution of the reference terminates, and every final
    state has each buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefTerm.lean ====
/-
  The reference's result as one term of its four arguments.

  The fold of the fifty-six operations at the result buffer is a composition of pure array operations.  It is named
  here in stages: the positions `0 … 8191` repeated for each batch (`posIdx`), their wrap-around (`wrapIdx`: a
  negative index gets 8192 added), the same with a trailing unit axis (`posIdx3`), the in-bounds mask (`inBounds`:
  `0 ≤ i ≤ 8191`, reduced by "and" over the unit axis), the looked-up rows (`takenArr`: the gathered row where the
  mask holds, not-a-number elsewhere); then for `h = x + taken` the row sums (`rowSum`), the mean (`meanArr`), the
  centred entries (`centredArr`), the variance (`varArr`), the square root of variance plus `ε` (`sdArr`), and the
  result (`outArr`): centred over that root, times `γ`, plus `β`, the two vectors repeated along the rows (`vec3`).
-/
import proofs.«107286_g32229434589322_cont_9to1_584_2_alg».proof.Proof.RefRun

noncomputable section

namespace Cert.ReferenceIdeal.RefTerm

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The positions `0 … 8191`, the same for each of the four batches. -/
def posIdx : IVec S4x8192 32 :=
  broadcastInDim S4x8192 ![0, 1] bcast_S1x8192_S4x8192_0_1
    (broadcastInDim S1x8192 ![1] bcast_S8192_S1x8192_1 (iotaInDim S8192 32 0))

/-- An index wrapped around: `i + 8192` where `i < 0`, else `i`. -/
def wrapIdx (i : IVec S4x8192 32) : IVec S4x8192 32 :=
  select (cmpi .slt i (broadcastInDim S4x8192 ![] bcast_S_S4x8192 (constantI S_ 32 0#32)))
    (addi i (broadcastInDim S4x8192 ![] bcast_S_S4x8192 (constantI S_ 32 8192#32))) i

/-- The wrapped index with a trailing unit axis: the gather's start indices. -/
def posIdx3 (i : IVec S4x8192 32) : IVec S4x8192x1 32 :=
  broadcastInDim S4x8192x1 ![0, 1] bcast_S4x8192_S4x8192x1_0_1 (wrapIdx i)

/-- The in-bounds mask of start indices: `0 ≤ i` and `i ≤ 8191`, reduced by "and" over the unit axis. -/
def inBounds (i3 : IVec S4x8192x1 32) : IVec S4x8192 1 :=
  Host.reduce IntOp.andi
    (andi (cmpi .sge i3 (broadcastInDim S4x8192x1 ![] bcast_S_S4x8192x1 (constantI S_ 32 0#32)))
      (cmpi .sle i3 (broadcastInDim S4x8192x1 ![0, 1, 2] bcast_S1x1x1_S4x8192x1_0_1_2
        (broadcastInDim S1x1x1 ![2] bcast_S1_S1x1x1_2 (constantI S1 32 8191#32)))))
    (constantI S_ 1 1#1) reducesTo_S4x8192x1_S4x8192_d2 h_S_

/-- The rows looked up at start indices `i3`: the gathered row where the index is in bounds, not-a-number elsewhere. -/
def takenAt (pos : FVec F S8192x768 .f32) (i3 : IVec S4x8192x1 32) : FVec F S4x8192x768 .f32 :=
  select (broadcastInDim S4x8192x768 ![0, 1] bcast_S4x8192_S4x8192x768_0_1 (inBounds i3))
    (Host.gather gather_S8192x768_S4x8192x1_S4x8192x768_2_0_n_n_0_2_1768 pos i3)
    (broadcastInDim S4x8192x768 ![] bcast_S_S4x8192x768 (constant S_ .f32 0x7FC00000#32))

/-- The rows of the position table looked up at the positions `0 … 8191`. -/
def takenArr (pos : FVec F S8192x768 .f32) : FVec F S4x8192x768 .f32 := takenAt pos (posIdx3 posIdx)

/-- The sum of each row of 768 lanes, with a trailing unit axis. -/
def rowSum (h : FVec F S4x8192x768 .f32) : FVec F S4x8192x1 .f32 :=
  broadcastInDim S4x8192x1 ![0, 1] bcast_S4x8192_S4x8192x1_0_1
    (Host.reduceAdd h (constant S_ .f32 0x00000000#32) reducesTo_S4x8192x768_S4x8192_d2 h_S_)

/-- The constant `768.0` at every row. -/
def nArr : FVec F S4x8192x1 .f32 := broadcastInDim S4x8192x1 ![] bcast_S_S4x8192x1 (constant S_ .f32 0x44400000#32)

/-- The mean of each row. -/
def meanArr (h : FVec F S4x8192x768 .f32) : FVec F S4x8192x1 .f32 := Host.divf (rowSum h) nArr

/-- Each entry minus its row's mean. -/
def centredArr (h : FVec F S4x8192x768 .f32) : FVec F S4x8192x768 .f32 :=
  subf h (broadcastInDim S4x8192x768 ![0, 1, 2] bcast_S4x8192x1_S4x8192x768_0_1_2 (meanArr h))

/-- The variance of each row. -/
def varArr (h : FVec F S4x8192x768 .f32) : FVec F S4x8192x1 .f32 :=
  Host.divf (rowSum (mulf (centredArr h) (centredArr h))) nArr

/-- The square root of each row's variance plus `ε`. -/
def sdArr (h : FVec F S4x8192x768 .f32) : FVec F S4x8192x1 .f32 :=
  Host.sqrt (addf (varArr h) (broadcastInDim S4x8192x1 ![] bcast_S_S4x8192x1 (constant S_ .f32 0x2B8CBCCC#32)))

/-- A vector of 768 lanes repeated along every row. -/
def vec3 (g : FVec F S768 .f32) : FVec F S4x8192x768 .f32 :=
  broadcastInDim S4x8192x768 ![0, 1, 2] bcast_S1x1x768_S4x8192x768_0_1_2 (broadcastInDim S1x1x768 ![2] bcast_S768_S1x1x768_2 g)

/-- The normalisation of `h`: centred over the root, times `γ`, plus `β`. -/
def normArr (h : FVec F S4x8192x768 .f32) (gam bet : FVec F S768 .f32) : FVec F S4x8192x768 .f32 :=
  addf (mulf (Host.divf (centredArr h)
      (broadcastInDim S4x8192x768 ![0, 1, 2] bcast_S4x8192x1_S4x8192x768_0_1_2 (sdArr h))) (vec3 gam)) (vec3 bet)

/-- The reference's result. -/
def outArr (x : FVec F S4x8192x768 .f32) (pos : FVec F S8192x768 .f32) (gam bet : FVec F S768 .f32) :
    FVec F S4x8192x768 .f32 :=
  normArr (addf x (takenArr pos)) gam bet

attribute [local irreducible] Host.reduce Host.gather Host.reduceAdd Host.divf Host.sqrt broadcastInDim in
set_option maxRecDepth 8192 in
set_option maxHeartbeats 400000 in
/-- The fold at the result buffer is `outArr` of the four arguments: each operation's result is read at the buffer
    it writes and passed over at the others, and the named stages unfold to the same composition. -/
theorem out_eq (V : Valuation τ sig (Elt F)) :
    after ops V (main_v28 : DevRef τ sig)
      = outArr (V (main_arg0 : DevRef τ sig)) (V (main_arg1 : DevRef τ sig)) (V (main_arg2 : DevRef τ sig))
          (V (main_arg3 : DevRef τ sig)) := by
  after_results_simp
  rfl

theorem arg0_eq (V : Valuation τ sig (Elt F)) :
    after ops V (main_arg0 : DevRef τ sig) = V (main_arg0 : DevRef τ sig) := by
  simp only [after_cons, after_nil]
  rfl

theorem arg1_eq (V : Valuation τ sig (Elt F)) :
    after ops V (main_arg1 : DevRef τ sig) = V (main_arg1 : DevRef τ sig) := by
  simp only [after_cons, after_nil]
  rfl

theorem arg2_eq (V : Valuation τ sig (Elt F)) :
    after ops V (main_arg2 : DevRef τ sig) = V (main_arg2 : DevRef τ sig) := by
  simp only [after_cons, after_nil]
  rfl

theorem arg3_eq (V : Valuation τ sig (Elt F)) :
    after ops V (main_arg3 : DevRef τ sig) = V (main_arg3 : DevRef τ sig) := by
  simp only [after_cons, after_nil]
  rfl

end Cert.ReferenceIdeal.RefTerm

end
-- ==== Proof.RefTake.lean ====
/-
  The position lookup, read at an index.

  The reference looks the position table up at the indices `0 … 8191` (the same for each batch) through a general
  "take": negative indices are wrapped around, the rows are gathered with the start index clamped into the table,
  and rows whose index was out of bounds are replaced by not-a-number.  For these indices none of that changes
  anything: no index is negative, every index is in bounds, and the clamp is the identity.  So the looked-up array
  at `(b, s, j)` is the table at `(s, j)` (`takenArr_apply`).
-/
import proofs.«107286_g32229434589322_cont_9to1_584_2_alg».proof.Proof.RefTerm
import Idealize.ShloMosaic.Lib.ValueIdx
import Idealize.ShloMosaic.Lib.Pipeline.Value
import Idealize.ShloMosaic.PureOps.Reduce

noncomputable section

namespace Cert.ReferenceIdeal.RefTake

open Cert.ReferenceIdeal Cert.ReferenceIdeal.Gen Cert.ReferenceIdeal.RefTerm Idealize.ShloMosaic Idealize.ShloMosaic.ValueIdx

/-- A position below 8192, as a 32-bit word read signed, is itself. -/
theorem toInt_ofNat_lt (n : Nat) (h : n < 8192) : (BitVec.ofNat 32 n).toInt = (n : Int) := by
  rw [BitVec.toInt_eq_toNat_cond, BitVec.toNat_ofNat]
  have e : n % 2 ^ 32 = n := Nat.mod_eq_of_lt (by omega)
  rw [e, if_pos (by omega)]

/-- A position is not negative: the wrap's comparison `i < 0` is false. -/
theorem slt_zero (n : Nat) (h : n < 8192) : IntOp.cmpi .slt (BitVec.ofNat 32 n) 0#32 = 0#1 := by
  unfold IntOp.cmpi
  simp only [BitVec.slt, toInt_ofNat_lt n h]
  have e : ¬ ((n : Int) < (0#32 : BitVec 32).toInt) := by
    have : (0#32 : BitVec 32).toInt = 0 := by decide
    rw [this]; omega
  rw [decide_eq_false e]
  rfl

/-- A position is at least zero. -/
theorem sge_zero (n : Nat) (h : n < 8192) : IntOp.cmpi .sge (BitVec.ofNat 32 n) 0#32 = 1#1 := by
  unfold IntOp.cmpi
  simp only [BitVec.sle, toInt_ofNat_lt n h]
  have e : (0#32 : BitVec 32).toInt ≤ (n : Int) := by
    have : (0#32 : BitVec 32).toInt = 0 := by decide
    rw [this]; omega
  rw [decide_eq_true e]
  rfl

/-- A position is at most 8191. -/
theorem sle_max (n : Nat) (h : n < 8192) : IntOp.cmpi .sle (BitVec.ofNat 32 n) 8191#32 = 1#1 := by
  unfold IntOp.cmpi
  simp only [BitVec.sle, toInt_ofNat_lt n h]
  have e : (n : Int) ≤ (8191#32 : BitVec 32).toInt := by
    have : (8191#32 : BitVec 32).toInt = 8191 := by decide
    rw [this]; omega
  rw [decide_eq_true e]
  rfl

/-- The index array at batch `b` and position `s` is the word `s`. -/
theorem posIdx_apply (b : Fin 4) (s : Fin 8192) : posIdx (ix2 b s) = BitVec.ofNat 32 s.val := by
  unfold posIdx
  refine (broadcastInDim_apply ![0, 1] bcast_S1x8192_S4x8192_0_1 _ (ix2 b s) (ix2 (0 : Fin 1) s)
    (fun a => match a with | ⟨0, _⟩ => rfl | ⟨1, _⟩ => rfl)).trans ?_
  refine (broadcastInDim_apply ![1] bcast_S8192_S1x8192_1 _ (ix2 (0 : Fin 1) s) (ix1 s)
    (fun a => match a with | ⟨0, _⟩ => rfl)).trans ?_
  rfl

/-- Wrapping leaves it unchanged, as no position is negative. -/
theorem wrapIdx_posIdx_apply (b : Fin 4) (s : Fin 8192) : wrapIdx posIdx (ix2 b s) = BitVec.ofNat 32 s.val := by
  show Scalar.select (IntOp.cmpi .slt (posIdx (ix2 b s)) 0#32) (IntOp.addi (posIdx (ix2 b s)) 8192#32) (posIdx (ix2 b s)) = _
  rw [posIdx_apply, slt_zero _ s.isLt, select_zero]

/-- So the gather's start index at `(b, s, 0)` is the word `s`. -/
theorem posIdx3_apply (b : Fin 4) (s : Fin 8192) (u : Fin 1) : posIdx3 posIdx (ix3 b s u) = BitVec.ofNat 32 s.val := by
  unfold posIdx3
  refine (broadcastInDim_apply ![0, 1] bcast_S4x8192_S4x8192x1_0_1 _ (ix3 b s u) (ix2 b s)
    (fun a => match a with | ⟨0, _⟩ => rfl | ⟨1, _⟩ => rfl)).trans ?_
  exact wrapIdx_posIdx_apply b s

/-- A fold by "and" that starts at 1 and meets only 1s is 1. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_one f hf l

/-- The in-bounds mask is 1 wherever every start index lies in `[0, 8191]`. -/
theorem inBounds_apply (i3 : IVec S4x8192x1 32)
    (h : ∀ i, IntOp.cmpi .sge (i3 i) 0#32 = 1#1 ∧ IntOp.cmpi .sle (i3 i) 8191#32 = 1#1) (j : S4x8192.Idx) :
    inBounds i3 j = 1#1 := by
  unfold inBounds
  rw [Host.reduce_eq_foldl]
  exact foldl_andi_one _ (fun i => by
    show IntOp.andi (IntOp.cmpi .sge (i3 i) 0#32) (IntOp.cmpi .sle (i3 i) 8191#32) = 1#1
    rw [(h i).1, (h i).2]; decide) _

/-- The positions' mask is 1 everywhere. -/
theorem inBounds_posIdx3 (j : S4x8192.Idx) : inBounds (posIdx3 posIdx) j = 1#1 :=
  inBounds_apply _ (fun i => by
    obtain ⟨b, s, u, rfl⟩ : ∃ (b : Fin 4) (s : Fin 8192) (u : Fin 1), i = ix3 b s u := ⟨i 0, i 1, i 2, eq_ix3 i⟩
    rw [posIdx3_apply]
    exact ⟨sge_zero _ s.isLt, sle_max _ s.isLt⟩) j

local notation "G" => gather_S8192x768_S4x8192x1_S4x8192x768_2_0_n_n_0_2_1768

/-- The gather of whole rows read at `(b, s, j)`: when the start index at `(b, s, 0)` is the word `s`, the operand's row index is `s` (the clamp into `[0, 8191]` does nothing) and its lane is `j`, the result's offset coordinate. -/
theorem gather_rows_apply {α : Type} (x : S8192x768.Idx → α) (idx : IVec S4x8192x1 32) (b : Fin 4) (s : Fin 8192)
    (j : Fin 768) (hv : (idx (ix3 b s (0 : Fin 1))).toInt.toNat = s.val) :
    Host.gather G x idx (ix3 b s j) = x (ix2 s j) := by
  unfold Host.gather
  refine congrArg x ?_
  funext a
  refine Fin.ext ?_
  match a with
  | ⟨0, _⟩ =>
    show GatherDims.start G (ix3 b s j) idx 0 + GatherDims.batchCoord G (ix3 b s j) 0 + GatherDims.offCoord G (ix3 b s j) 0 = s.val
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ GatherDims.startIndexMap G from List.mem_singleton.mpr rfl)]
    have hsi : GatherDims.siIdx G (ix3 b s j) ⟨List.idxOf (0 : Fin 2) (GatherDims.startIndexMap G),
        List.idxOf_lt_length_iff.2 (List.mem_singleton.mpr rfl)⟩ = ix3 b s (0 : Fin 1) := by
      funext c; refine Fin.ext ?_
      match c with
      | ⟨0, _⟩ => rfl
      | ⟨1, _⟩ => rfl
      | ⟨2, _⟩ => rfl
    rw [hsi, hv]
    show min s.val 8191 = s.val
    exact Nat.min_eq_left (by have := s.isLt; omega)
  | ⟨1, _⟩ =>
    show GatherDims.start G (ix3 b s j) idx 1 + GatherDims.batchCoord G (ix3 b s j) 1 + GatherDims.offCoord G (ix3 b s j) 1 = j.val
    have h1 : GatherDims.start G (ix3 b s j) idx 1 = 0 := by unfold GatherDims.start; exact dif_neg (by decide)
    have h2 : GatherDims.batchCoord G (ix3 b s j) 1 = 0 := GatherDims.batchCoord_eq_zero _ _ _ List.not_mem_nil
    have h3 : GatherDims.offCoord G (ix3 b s j) 1 = j.val := by
      unfold GatherDims.offCoord; rw [dif_pos (by decide)]; rfl
    rw [h1, h2, h3]; omega

variable {F : FTy → Type} [FloatOps F]

/-- The looked-up array at `(b, s, j)` is the position table at `(s, j)`. -/
theorem takenArr_apply (pos : FVec F S8192x768 .f32) (b : Fin 4) (s : Fin 8192) (j : Fin 768) :
    takenArr pos (ix3 b s j) = pos (ix2 s j) := by
  unfold takenArr takenAt
  rw [select_apply]
  have hm : broadcastInDim S4x8192x768 ![0, 1] bcast_S4x8192_S4x8192x768_0_1 (inBounds (posIdx3 posIdx)) (ix3 b s j) = 1#1 :=
    (broadcastInDim_apply ![0, 1] bcast_S4x8192_S4x8192x768_0_1 _ (ix3 b s j) (ix2 b s)
      (fun a => match a with | ⟨0, _⟩ => rfl | ⟨1, _⟩ => rfl)).trans (inBounds_posIdx3 _)
  rw [hm, select_one]
  refine gather_rows_apply pos _ b s j ?_
  rw [posIdx3_apply, toInt_ofNat_lt _ s.isLt, Int.toNat_natCast]

end Cert.ReferenceIdeal.RefTake

end
-- ==== Proof.RefRead.lean ====
/-
  The reference's term, read at an index, is the quotient form of the layer normalisation.

  Each stage of the composed term is read at coordinates `(b, s, j)`: a broadcast reads its operand at the
  coordinates it keeps, an elementwise operation reads its operands at the same index, and a sum over the lanes
  reads as the finite sum of the row's 768 entries.  Stage by stage this gives the row sum, the mean, the centred
  entry, the variance, the root of variance plus `ε`, and the normalised entry, each in the form the specification
  names (`meanDiv`, `varDiv`, `rowDiv`), for the row `k ↦ h (b, s, k)` of any array `h`.  With `h = x + taken`
  and the lookup read as the position table itself, the row is `hrow x pos b s`, and the result array is `lnDiv`.
-/
import proofs.«107286_g32229434589322_cont_9to1_584_2_alg».proof.Proof.RefTake
import proofs.«107286_g32229434589322_cont_9to1_584_2_alg».proof.Proof.Spec
import Idealize.ShloMosaic.Lib.IdealHost

noncomputable section

open scoped BigOperators

namespace Cert.ReferenceIdeal.RefRead

open Cert.ReferenceIdeal Cert.ReferenceIdeal.Gen Cert.ReferenceIdeal.RefTerm Cert.ReferenceIdeal.RefTake Cert.LN Idealize.ShloMosaic Idealize.ShloMosaic.ValueIdx

variable (h : FVec Ideal S4x8192x768 .f32)

/-- The index over `(b, s)` with lane `k` inserted is `(b, s, k)`. -/
theorem lift_eq (hr : S4x8192x768.Reduces [2] S4x8192) (b : Fin 4) (s : Fin 8192) (k : Fin 768) :
    hr.lift (ix2 b s) k = ix3 b s k := by
  funext c; refine Fin.ext ?_
  match c with
  | ⟨0, _⟩ => rfl
  | ⟨1, _⟩ => rfl
  | ⟨2, _⟩ => rfl

/-- A row-wise array repeated along the lanes reads its row's entry. -/
theorem bcRow_apply {α : Type} (v : S4x8192x1.Idx → α) (b : Fin 4) (s : Fin 8192) (j : Fin 768) :
    broadcastInDim S4x8192x768 ![0, 1, 2] bcast_S4x8192x1_S4x8192x768_0_1_2 v (ix3 b s j) = v (ix3 b s (0 : Fin 1)) :=
  broadcastInDim_apply ![0, 1, 2] bcast_S4x8192x1_S4x8192x768_0_1_2 v (ix3 b s j) (ix3 b s (0 : Fin 1))
    (fun a => match a with | ⟨0, _⟩ => rfl | ⟨1, _⟩ => rfl | ⟨2, _⟩ => rfl)

/-- A vector repeated along every row reads its lane's entry. -/
theorem vec3_apply (g : FVec Ideal S768 .f32) (b : Fin 4) (s : Fin 8192) (j : Fin 768) :
    vec3 g (ix3 b s j) = g (ix1 j) := by
  unfold vec3
  refine (broadcastInDim_apply ![0, 1, 2] bcast_S1x1x768_S4x8192x768_0_1_2 _ (ix3 b s j) (ix3 (0 : Fin 1) (0 : Fin 1) j)
    (fun a => match a with | ⟨0, _⟩ => rfl | ⟨1, _⟩ => rfl | ⟨2, _⟩ => rfl)).trans ?_
  exact broadcastInDim_apply ![2] bcast_S768_S1x1x768_2 g (ix3 (0 : Fin 1) (0 : Fin 1) j) (ix1 j)
    (fun a => match a with | ⟨0, _⟩ => rfl)

/-- The row sum at `(b, s)` is the sum of the row's 768 entries. -/
theorem rowSum_apply (b : Fin 4) (s : Fin 8192) (u : Fin 1) :
    rowSum h (ix3 b s u) = ∑ k : Fin 768, h (ix3 b s k) := by
  unfold rowSum
  refine (broadcastInDim_apply ![0, 1] bcast_S4x8192_S4x8192x1_0_1 _ (ix3 b s u) (ix2 b s)
    (fun a => match a with | ⟨0, _⟩ => rfl | ⟨1, _⟩ => rfl)).trans ?_
  refine (hostReduceAdd_apply h _ reducesTo_S4x8192x768_S4x8192_d2 h_S_ (ix2 b s)).trans ?_
  refine (Ideal.hostReduceAdd_single reducesTo_S4x8192x768_S4x8192_d2 (by decide) h _ (ix2 b s)).trans ?_
  rw [constant_apply, Ideal.ofBits_zero_f32, zero_add]
  exact Finset.sum_congr rfl (fun k _ => congrArg h (lift_eq _ b s k))

/-- The divisor array is the literal `768.0` everywhere. -/
theorem nArr_apply (i : S4x8192x1.Idx) : nArr (F := Ideal) i = nLit := rfl

/-- The mean at `(b, s)` is the quotient form's mean of the row. -/
theorem meanArr_apply (b : Fin 4) (s : Fin 8192) (u : Fin 1) :
    meanArr h (ix3 b s u) = meanDiv nLit (fun k => h (ix3 b s k)) := by
  unfold meanArr meanDiv
  rw [hostDivf_apply, rowSum_apply, nArr_apply]

/-- A centred entry is the entry minus its row's mean. -/
theorem centredArr_apply (b : Fin 4) (s : Fin 8192) (j : Fin 768) :
    centredArr h (ix3 b s j) = h (ix3 b s j) - meanDiv nLit (fun k => h (ix3 b s k)) := by
  unfold centredArr
  rw [subf_apply, bcRow_apply, meanArr_apply]

/-- The variance at `(b, s)` is the quotient form's variance of the row. -/
theorem varArr_apply (b : Fin 4) (s : Fin 8192) (u : Fin 1) :
    varArr h (ix3 b s u) = varDiv nLit (fun k => h (ix3 b s k)) := by
  unfold varArr varDiv
  rw [hostDivf_apply, rowSum_apply, nArr_apply]
  refine congrArg (Ideal.div · nLit) (Finset.sum_congr rfl fun k _ => ?_)
  rw [mulf_apply, centredArr_apply]

/-- The root at `(b, s)` is the square root of the row's variance plus `ε`. -/
theorem sdArr_apply (b : Fin 4) (s : Fin 8192) (u : Fin 1) :
    sdArr h (ix3 b s u) = Ideal.sqrt (varDiv nLit (fun k => h (ix3 b s k)) + epsLit) := by
  unfold sdArr
  show Ideal.sqrt (varArr h (ix3 b s u) + epsLit) = _
  rw [varArr_apply]

/-- The normalisation at `(b, s, j)` is the quotient form's entry for the row. -/
theorem normArr_apply (gam bet : FVec Ideal S768 .f32) (b : Fin 4) (s : Fin 8192) (j : Fin 768) :
    normArr h gam bet (ix3 b s j) = rowDiv nLit epsLit (fun k => h (ix3 b s k)) (gam (ix1 j)) (bet (ix1 j)) j := by
  unfold normArr rowDiv
  rw [addf_apply, mulf_apply, hostDivf_apply, bcRow_apply, sdArr_apply, centredArr_apply, vec3_apply, vec3_apply]

/-- The reference's result is the quotient form of the layer normalisation of `x + pos`. -/
theorem outArr_eq (x : FVec Ideal S4x8192x768 .f32) (pos : FVec Ideal S8192x768 .f32) (gam bet : FVec Ideal S768 .f32) :
    outArr x pos gam bet = lnDiv nLit epsLit x pos gam bet := by
  funext i
  obtain ⟨b, s, j, rfl⟩ : ∃ (b : Fin 4) (s : Fin 8192) (j : Fin 768), i = ix3 b s j := ⟨i 0, i 1, i 2, eq_ix3 i⟩
  rw [lnDiv_ix3]
  unfold outArr lnDivAt
  rw [normArr_apply]
  refine congrArg (fun r => rowDiv nLit epsLit r (gam (ix1 j)) (bet (ix1 j)) j) (funext fun k => ?_)
  rw [addf_apply, takenArr_apply]
  rfl

end Cert.ReferenceIdeal.RefRead

end
-- ==== Proof.RefValue.lean ====
/-
  The reference's run and value: every weakly fair execution of the idealized reference terminates with its result
  buffer at the quotient form of the layer normalisation of `x + pos` (`Cert.LN.lnDiv` at the literals `768.0` and
  `ε`), and its four arguments unchanged.  The run gives each buffer as the fold of the operations over the launch
  contents; the fold at the result buffer is the composed term `outArr`, which is `lnDiv` index by index; the fold
  at an argument buffer, which no operation writes, is what was there.
-/
import proofs.«107286_g32229434589322_cont_9to1_584_2_alg».proof.Defs
import proofs.«107286_g32229434589322_cont_9to1_584_2_alg».proof.Proof.Gen.ReferenceIdeal
import proofs.«107286_g32229434589322_cont_9to1_584_2_alg».proof.Proof.Spec
import Idealize.ShloMosaic.Lib.StableHlo.Run
import proofs.«107286_g32229434589322_cont_9to1_584_2_alg».proof.Proof.RefRun
import proofs.«107286_g32229434589322_cont_9to1_584_2_alg».proof.Proof.RefTerm
import proofs.«107286_g32229434589322_cont_9to1_584_2_alg».proof.Proof.RefRead

noncomputable section
namespace Cert.ReferenceIdeal.RefValue
open Cert.ReferenceIdeal Cert.ReferenceIdeal.Gen Idealize.ShloMosaic Idealize.ShloMosaic.TcCoe Idealize.SL.Sem Idealize.ShloMosaic.StableHlo

theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v28)
          = Cert.LN.lnDiv Cert.LN.nLit Cert.LN.epsLit (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono (fun _ h c =>
      ⟨(h c main_v28).trans ((RefTerm.out_eq _).trans (RefRead.outArr_eq _ _ _ _)),
        (h c main_arg0).trans (RefTerm.arg0_eq _),
        (h c main_arg1).trans (RefTerm.arg1_eq _),
        (h c main_arg2).trans (RefTerm.arg2_eq _),
        (h c main_arg3).trans (RefTerm.arg3_eq _)⟩)
    (RefRun.run_main m ρ)
end Cert.ReferenceIdeal.RefValue
end
-- ==== Proof.Algebra.lean ====
/-
  The product form and the quotient form of layer normalisation agree on rows of reals.

  Division by the real `768` is multiplication by the real `1/768` on all of the extended reals, so the two means and
  the two variances agree for every row.  On a row of reals the variance is a real `v ≥ 0`; with a positive real `ε`
  the sum `w = v + ε` is a positive real, and then multiplying by `rsqrt w = (√w)⁻¹` and dividing by `sqrt w = √w`
  are the same operation.  The literals: the word `0x44400000` denotes the real `768`, and the word `0x2B8CBCCC` a
  positive real.
-/
import proofs.«107286_g32229434589322_cont_9to1_584_2_alg».proof.Proof.Spec

noncomputable section

open scoped BigOperators

namespace Cert.LN

open Idealize.ShloMosaic Idealize.ShloMosaic.ValueIdx

/-- The word `0x44400000` (sign 0, exponent field 136, fraction field `2^22`) denotes
    `(2^23 + 2^22) · 2^(136 - 127 - 23) = 768`. -/
theorem nLit_eq : nLit = ((768 : ℝ) : EReal) := by
  simp [nLit, Ideal.ofBits, Ideal.ieee, -EReal.coe_mul]; norm_num

/-- The word `0x2B8CBCCC` (sign 0, exponent field 87, fraction field 834764) denotes the positive real
    `(2^23 + 834764) · 2^(87 - 127 - 23)`. -/
theorem epsLit_pos : ∃ e : ℝ, 0 < e ∧ epsLit = (e : EReal) := by
  refine ⟨((2 ^ 23 + 834764 : ℕ) : ℝ) * (2 : ℝ) ^ (-63 : ℤ), by positivity, ?_⟩
  simp [epsLit, Ideal.ofBits, Ideal.ieee, -EReal.coe_mul]

/-- The coercion of the reals into the extended reals commutes with finite sums. -/
theorem coe_finset_sum {ι : Type} (s : Finset ι) (r : ι → ℝ) :
    (∑ k ∈ s, ((r k : ℝ) : EReal)) = ((∑ k ∈ s, r k : ℝ) : EReal) := by
  classical
  induction s using Finset.induction_on with
  | empty => simp
  | insert a s ha ih => rw [Finset.sum_insert ha, Finset.sum_insert ha, ih, EReal.coe_add]

/-- Dividing a row's sum by `768` is multiplying it by `1/768`: the two means agree, for every row. -/
theorem meanDiv_eq (h : Fin 768 → EReal) : meanDiv ((768 : ℝ) : EReal) h = meanMul cLit h :=
  Ideal.div_coe (by norm_num) _

/-- The two variances agree, for every row. -/
theorem varDiv_eq (h : Fin 768 → EReal) : varDiv ((768 : ℝ) : EReal) h = varMul cLit h := by
  unfold varDiv varMul
  rw [meanDiv_eq]
  exact Ideal.div_coe (by norm_num) _

/-- On a row of reals the variance is a nonnegative real: a sum of squares of reals times `1/768`. -/
theorem varMul_real (r : Fin 768 → ℝ) :
    ∃ v : ℝ, 0 ≤ v ∧ varMul cLit (fun k => ((r k : ℝ) : EReal)) = (v : EReal) := by
  refine ⟨(∑ k, (r k - (∑ k, r k) * (1 / 768)) * (r k - (∑ k, r k) * (1 / 768))) * (1 / 768), ?_, ?_⟩
  · exact mul_nonneg (Finset.sum_nonneg fun k _ => mul_self_nonneg _) (by norm_num)
  · unfold varMul meanMul
    rw [coe_finset_sum, ← EReal.coe_mul]
    simp only [← EReal.coe_sub, ← EReal.coe_mul]
    rw [coe_finset_sum, ← EReal.coe_mul]

/-- At a positive real `w`, the product with `rsqrt w` is the quotient by `sqrt w`: both are the product with `(√w)⁻¹`. -/
theorem mul_rsqrt_eq_div_sqrt (c : EReal) {w : ℝ} (hw : 0 < w) :
    c * Ideal.rsqrt (w : EReal) = Ideal.div c (Ideal.sqrt (w : EReal)) := by
  have hs : Real.sqrt w ≠ 0 := (Real.sqrt_pos.2 hw).ne'
  rw [Ideal.rsqrt_coe, if_neg (not_lt.2 hw.le), if_neg hw.ne', Ideal.sqrt_coe, if_neg (not_lt.2 hw.le),
    Ideal.div_coe hs, one_div]

/-- One normalised entry: the product form with `c = 1/768` is the quotient form with `n = 768`, for a positive real
    `ε` and a row of reals. -/
theorem rowMul_eq_rowDiv (ε : EReal) (hε : ∃ e : ℝ, 0 < e ∧ ε = (e : EReal)) (h : Fin 768 → EReal)
    (hh : ∀ k, ∃ r : ℝ, h k = (r : EReal)) (g b : EReal) (j : Fin 768) :
    rowMul cLit ε h g b j = rowDiv ((768 : ℝ) : EReal) ε h g b j := by
  obtain ⟨e, he, rfl⟩ := hε
  choose r hr using hh
  obtain rfl : h = fun k => ((r k : ℝ) : EReal) := funext hr
  obtain ⟨v, hv, hve⟩ := varMul_real r
  unfold rowMul rowDiv
  rw [varDiv_eq, meanDiv_eq, hve, ← EReal.coe_add, mul_rsqrt_eq_div_sqrt _ (add_pos_of_nonneg_of_pos hv he)]

/-- The whole arrays agree when every entry of `x` and of the position table is a real: each row `x[b, s, ·] + pos[s, ·]`
    is then a row of reals. -/
theorem lnMul_eq_lnDiv (x : SX.Idx → EReal) (pos : SP.Idx → EReal) (gam bet : SV.Idx → EReal)
    (hx : ∀ i, ∃ r : ℝ, x i = (r : EReal)) (hp : ∀ i, ∃ r : ℝ, pos i = (r : EReal)) :
    lnMul cLit epsLit x pos gam bet = lnDiv nLit epsLit x pos gam bet := by
  funext i
  rw [nLit_eq]
  unfold lnMul lnDiv lnMulAt lnDivAt
  refine rowMul_eq_rowDiv _ epsLit_pos _ (fun k => ?_) _ _ _
  obtain ⟨a, ha⟩ := hx (ix3 (i 0) (i 1) k)
  obtain ⟨p, hp'⟩ := hp (ix2 (i 1) k)
  exact ⟨a + p, by unfold hrow; rw [ha, hp', EReal.coe_add]⟩

end Cert.LN

end
-- ==== Proof.Finite.lean ====
/-
  The precondition makes every entry of `x` and of the position table a real.

  The precondition is the conjunction of four `jnp.all`s; the first two say that `|x[i]| < +∞` at every index of `x`
  and `|pos[i]| < +∞` at every index of the position table.  On the extended reals `|v| = max v (-v)`, the word
  `0x7F800000` denotes `⊤`, and `max v (-v) < ⊤` excludes `v = ⊤` and `v = ⊥`: what is left is a real.
-/
import proofs.«107286_g32229434589322_cont_9to1_584_2_alg».proof.Defs
import proofs.«107286_g32229434589322_cont_9to1_584_2_alg».proof.Proof.Gen.Pre_finite_inputs
import Idealize.ShloMosaic.Lib.ReduceAll
import Idealize.ShloMosaic.Lib.ValueIdx

noncomputable section

namespace Cert.Proof.Finite

open Idealize.ShloMosaic Idealize.SL.Sem Idealize.ShloMosaic.TcCoe

/-- The word `0x7F800000` (exponent field all ones, fraction field zero, sign 0) denotes `+∞`. -/
theorem ofBits_inf : Ideal.ofBits .f32 0x7F800000#32 = (⊤ : EReal) := by
  simp [Ideal.ofBits, Ideal.ieee]

/-- An extended real whose absolute value compares below `+∞` is a real. -/
theorem real_of_abs_lt (v : EReal)
    (h : Ideal.cmp .olt (max v (-v)) (Ideal.ofBits .f32 0x7F800000#32) = 1#1) : ∃ r : ℝ, v = (r : EReal) := by
  rw [ofBits_inf] at h
  induction v using EReal.rec with
  | bot => simp [Ideal.cmp] at h
  | coe r => exact ⟨r, rfl⟩
  | top => simp [Ideal.cmp] at h

/-- The result shape of a reduction over all axes has one index. -/
instance : Subsingleton Cert.Pre_finite_inputs.S_.Idx := ⟨fun a b => funext fun d => d.elim0⟩

/-- The printed predicate, read back at its first two conjuncts. -/
theorem real_of_fn [hP : Cert.Pre_finite_inputs.Facts]
    (a0 : FVec Ideal Cert.Pre_finite_inputs.S4x8192x768 .f32) (a1 : FVec Ideal Cert.Pre_finite_inputs.S8192x768 .f32)
    (a2 a3 : FVec Ideal Cert.Pre_finite_inputs.S768 .f32)
    (h : Cert.Pre_finite_inputs.fn (F := Ideal) a0 a1 a2 a3 = fun _ => 1#1) :
    (∀ i, ∃ r : ℝ, a0 i = (r : EReal)) ∧ (∀ i, ∃ r : ℝ, a1 i = (r : EReal)) := by
  have h0 := congrFun h ValueIdx.ix0
  dsimp only [Cert.Pre_finite_inputs.fn, Cert.Pre_finite_inputs.fn_part1, andi] at h0
  obtain ⟨h012, -⟩ := IntOp.andi_eq_one.1 h0
  obtain ⟨h01, -⟩ := IntOp.andi_eq_one.1 h012
  obtain ⟨hA, hB⟩ := IntOp.andi_eq_one.1 h01
  refine ⟨fun i => ?_, fun i => ?_⟩
  · exact real_of_abs_lt _ (Host.reduce_andi_all _ _ _ _ _ hA i)
  · exact real_of_abs_lt _ (Host.reduce_andi_all _ _ _ _ _ hB i)

theorem real_of_pre [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) :=
  real_of_fn _ _ _ _ (hpre c)

end Cert.Proof.Finite

end
-- ==== Proof.lean ====
/-
  Position embedding plus layer normalisation: the kernel against its jnp reference, on the extended reals.

  Both programs add a position table to `x` (the reference by a `take` along `arange`, which returns the table itself)
  and layer-normalise each row of 768 lanes with scale `γ` and shift `β`.  The kernel forms the mean and the variance
  as lane sums times a literal that its idealization names as the rational `1/768`, and multiplies the centred row by
  `rsqrt (var + ε)`; the reference divides the sums by `768` and the centred row by `sqrt (var + ε)`.

  * `Proof/Spec.lean` states the two forms, `Cert.LN.lnMul` and `Cert.LN.lnDiv`, index by index.
  * `Proof/KPay.lean` and `Proof/KArr.lean`: the kernel's result array after its run is `lnMul (1/768) ε` of the
    arguments (one block per grid point, 32 blocks tiling the result).
  * `Proof/RefRun.lean` … `Proof/RefValue.lean`: the reference's result after its run is `lnDiv 768 ε` of the arguments.
  * `Proof/Algebra.lean`: on real-valued `x` and `pos` the two forms agree — division by `768` is multiplication by
    `1/768` everywhere, and at the positive real `var + ε` the product with `rsqrt` is the quotient by `sqrt`.
  * `Proof/Finite.lean`: the precondition (every float input finite) makes `x` and `pos` real-valued.
-/
import proofs.«107286_g32229434589322_cont_9to1_584_2_alg».proof.Defs
import proofs.«107286_g32229434589322_cont_9to1_584_2_alg».proof.Proof.Gen.Kernel
import proofs.«107286_g32229434589322_cont_9to1_584_2_alg».proof.Proof.Gen.Kernel.Frame
import proofs.«107286_g32229434589322_cont_9to1_584_2_alg».proof.Proof.Gen.KernelIdeal
import proofs.«107286_g32229434589322_cont_9to1_584_2_alg».proof.Proof.Gen.KernelIdeal.Frame
import proofs.«107286_g32229434589322_cont_9to1_584_2_alg».proof.Proof.Gen.KernelIdeal.Value
import proofs.«107286_g32229434589322_cont_9to1_584_2_alg».proof.Proof.Gen.ReferenceIdeal
import proofs.«107286_g32229434589322_cont_9to1_584_2_alg».proof.Proof.Gen.Pre_finite_inputs
import proofs.«107286_g32229434589322_cont_9to1_584_2_alg».proof.Proof.KArr
import proofs.«107286_g32229434589322_cont_9to1_584_2_alg».proof.Proof.RefValue
import proofs.«107286_g32229434589322_cont_9to1_584_2_alg».proof.Proof.Algebra
import proofs.«107286_g32229434589322_cont_9to1_584_2_alg».proof.Proof.Finite
import Idealize.ShloMosaic.Lib.StableHlo.Run
import Idealize.ShloMosaic.Adequacy
import Idealize.ShloMosaic.Init

noncomputable section

namespace Cert.Proof

open Idealize.ShloMosaic Idealize.SL.Sem

/-- The kernel as printed runs and leaves its arguments unchanged (the generated frame). -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result forgotten. -/
theorem frame_referenceIdeal : Cert.frame_ReferenceIdeal := fun m ρ _ =>
  (θ_run Cert.ReferenceIdeal.defs _ _).mono (fun _ h c => (h c).2) (Cert.ReferenceIdeal.RefValue.run m ρ)

/-- The two rewrites of the idealization: both name the literal `0x3AAAAAAB` as the rational `1/768`. -/
theorem preserves : Cert.preserves_Kernel_KernelIdeal :=
  ⟨IdealRules.named_const.statement Cert.KernelIdeal.κ "inv_768" .f32 0x3AAAAAAB#32 ((1 / 768 : ℝ) : EReal) rfl,
   IdealRules.named_const.statement Cert.KernelIdeal.κ "inv_768" .f32 0x3AAAAAAB#32 ((1 / 768 : ℝ) : EReal) rfl⟩

/-- On the extended reals the kernel's result is the product form of the layer normalisation of `x + pos` and the
    reference's the quotient form, of arguments that agree; the precondition makes every entry of `x` and of the position
    table a real, and on such arguments the two forms are one function. -/
theorem algebraic : Cert.algebraic_KernelIdeal_ReferenceIdeal := by
  intro m ρ m' ρ' hpre hagree
  refine ⟨_, Cert.KernelIdeal.KArr.run m ρ, ?_⟩
  refine (θ_run Cert.ReferenceIdeal.defs _ _).mono (fun _ h c => ⟨(h c).1.trans ?_, (h c).2⟩)
    (Cert.ReferenceIdeal.RefValue.run m' ρ')
  obtain ⟨hx, hp⟩ := Cert.Proof.Finite.real_of_pre m hpre c
  rw [(hagree c).1, (hagree c).2.1, (hagree c).2.2.1, (hagree c).2.2.2]
  exact (Cert.LN.lnMul_eq_lnDiv _ _ _ _ hx hp).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
